-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S4096x4096 32) (main_arg2 : FVec F S4096 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 10
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S8192x4096, .f32⟩
  | .hbm, ⟨5, _⟩ => ⟨S4096x4096, .bf16⟩
  | .hbm, ⟨6, _⟩ => ⟨S1x4096, .f32⟩
  | .hbm, ⟨7, _⟩ => ⟨S1x4096, .f32⟩
  | .hbm, ⟨8, _⟩ => ⟨S8192x4096, .f32⟩
  | .hbm, ⟨9, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x1 : Shape := ⟨2, ![4096, 1]⟩
abbrev S1x1x4096 : Shape := ⟨3, ![1, 1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S4096x1, .f32⟩
  | .hbm, ⟨6, _⟩ => ⟨S4096x4096, .f32⟩
  | .hbm, ⟨7, _⟩ => ⟨S4096x4096, .f32⟩
  | .hbm, ⟨8, _⟩ => ⟨S4x2048x4096, .f32⟩
  | .hbm, ⟨9, _⟩ => ⟨S1x1x4096, .f32⟩
  | .hbm, ⟨10, _⟩ => ⟨S4x2048x4096, .f32⟩
  | .hbm, ⟨11, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.CaseValues.lean ====
/-
  What one run of the kernel body leaves behind, case by case, as pure functions of the blocks it loads.

  The body keeps a running [1024, 1024] accumulator across the four steps of the contraction axis. With `x` the
  activation block, `w` the weight block, `acc` the accumulator as the step finds it, `s` and `b` the scale and bias
  rows:
    * first step:   the accumulator is cleared and then holds `0 + x·wᵀ`;
    * middle steps: it holds `acc + x·wᵀ`;
    * last step:    it holds `acc + x·wᵀ`, and the output block is `(acc + x·wᵀ) · s + b`, rows of `s` and `b` repeated
                    down the block.
  Each statement says that the contents the body leaves are the corresponding payload term; nothing here depends on
  how a float is represented.
-/
import proofs.«175887_j65953517798089_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem

namespace Cert.KernelIdeal.KValue

open Cert.KernelIdeal Cert.KernelIdeal.Gen

variable {F : FTy → Type} [FloatOps F]

/-- The zero offsets of a whole-block access, as a constant function. -/
theorem hz : (![0, 0] : Fin 2 → Nat) = fun _ => 0 := funext fun a => by fin_cases a <;> rfl

/-- FIRST STEP: the accumulator is cleared, read back, and left at `0 + x·wᵀ`. -/
theorem scratch_first (c : Dev nD) (i : grid0.Coords) (a3 : Memref sig .tc .vmem S1024x1024 .f32) (h3 : a3.IsWhole) (a4 : Memref sig .tc .vmem S1024x1024 .bf16) (h4 : a4.IsWhole) (a5 : Memref sig .tc .vmem S1x1024 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : cond0_0 i) (hc1 : ¬cond0_1 i) (x0 : Vec F S1024x1024 .f32) (x1 : Vec F S1024x1024 .bf16) (x2 : Vec F S1x1024 .f32) (x3 : Vec F S1x1024 .f32) :
    sout0_A_0 c i a3 h3 a4 h4 a5 h5 a6 h6 a7 h7 a8 h8 hc0 hc1 x0 x1 x2 x3 = k0_pay2 x0 x1 (k0_pay1 (F := F)) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S1024x1024) hz]
  simp only [View.readCov_unit_zero (S := S1024x1024) _ hz, View.readAt_eq_ld, h3.read_unread, h4.read_unread,
    View.ld_unit_zero (S := S1024x1024) hz]

/-- MIDDLE STEPS: the accumulator `acc` is left at `acc + x·wᵀ`. -/
theorem scratch_middle (c : Dev nD) (i : grid0.Coords) (a3 : Memref sig .tc .vmem S1024x1024 .f32) (h3 : a3.IsWhole) (a4 : Memref sig .tc .vmem S1024x1024 .bf16) (h4 : a4.IsWhole) (a5 : Memref sig .tc .vmem S1x1024 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : ¬cond0_1 i) (x0 : Vec F S1024x1024 .f32) (x1 : Vec F S1024x1024 .bf16) (x2 : Vec F S1x1024 .f32) (x3 : Vec F S1x1024 .f32) (xs0 : Vec F S1024x1024 .f32) :
    sout0_B_0 c i a3 h3 a4 h4 a5 h5 a6 h6 a7 h7 a8 h8 hc0 hc1 x0 x1 x2 x3 xs0 = k0_pay2 x0 x1 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  rw [View.canon_unit_zero hz]
  simp only [View.readAt_eq_ld, h3.read_unread, h4.read_unread, h8.read_unread, View.ld_unit_zero (S := S1024x1024) hz]

/-- LAST STEP, the accumulator: again `acc + x·wᵀ`. -/
theorem scratch_last (c : Dev nD) (i : grid0.Coords) (a3 : Memref sig .tc .vmem S1024x1024 .f32) (h3 : a3.IsWhole) (a4 : Memref sig .tc .vmem S1024x1024 .bf16) (h4 : a4.IsWhole) (a5 : Memref sig .tc .vmem S1x1024 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i) (x0 : Vec F S1024x1024 .f32) (x1 : Vec F S1024x1024 .bf16) (x2 : Vec F S1x1024 .f32) (x3 : Vec F S1x1024 .f32) (xs0 : Vec F S1024x1024 .f32) :
    sout0_C_0 c i a3 h3 a4 h4 a5 h5 a6 h6 a7 h7 a8 h8 hc0 hc1 x0 x1 x2 x3 xs0 = k0_pay2 x0 x1 xs0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero hz]
  simp only [View.readAt_eq_ld, h3.read_unread, h4.read_unread, h8.read_unread, View.ld_unit_zero (S := S1024x1024) hz]

/-- LAST STEP, the output block: the finished accumulator scaled by `s` and shifted by `b`. -/
theorem out_last (c : Dev nD) (i : grid0.Coords) (a3 : Memref sig .tc .vmem S1024x1024 .f32) (h3 : a3.IsWhole) (a4 : Memref sig .tc .vmem S1024x1024 .bf16) (h4 : a4.IsWhole) (a5 : Memref sig .tc .vmem S1x1024 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i) (x0 : Vec F S1024x1024 .f32) (x1 : Vec F S1024x1024 .bf16) (x2 : Vec F S1x1024 .f32) (x3 : Vec F S1x1024 .f32) (xs0 : Vec F S1024x1024 .f32) :
    out0_C_4 c i a3 h3 a4 h4 a5 h5 a6 h6 a7 h7 a8 h8 hc0 hc1 x0 x1 x2 x3 xs0 = k0_pay3 (k0_pay2 x0 x1 xs0) x2 x3 := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero hz]
  simp only [View.readCov_unit_zero (S := S1024x1024) _ hz, View.readAt_eq_ld, h3.read_unread, h4.read_unread, h5.read_unread,
    h6.read_unread, h8.read_unread, View.ld_unit_zero (S := S1024x1024) hz, View.ld_unit_zero (S := S1x1024) hz]

end Cert.KernelIdeal.KValue

end
-- ==== Proof.Steps.lean ====
/-
  How the accumulator and the output block evolve from one grid point to the next.

  The 128 grid points are visited in order; point `t` is step `t mod 4` of the contraction axis for one output block.
  With `x_t`, `w_t`, `s_t`, `b_t` the blocks the point loads:
    * at a first step  (`t mod 4 = 0`) the accumulator is left at `step x_t w_t 0`;
    * at any later step it is left at `step x_t w_t acc`, `acc` being what point `t - 1` left;
    * at a last step   (`t mod 4 = 3`) the output block is `finish (step x_t w_t acc) s_t b_t`,
  where `step` and `finish` are the body's accumulating and finishing payloads.
-/
import proofs.«175887_j65953517798089_2_alg».proof.Proof.CaseValues

set_option maxRecDepth 16384

noncomputable section

open Idealize.ShloMosaic Idealize.ShloMosaic.TcCoe Idealize.SL.Sem

namespace Cert.KernelIdeal.KValue

open Cert.KernelIdeal Cert.KernelIdeal.Gen

variable {F : FTy → Type} [FloatOps F]
variable (m : (ℓ : Loc nD τ sig) → Buf (Elt F) ℓ)

/-- The point before `t` is a point. -/
theorem pred_lt (t : Fin cfg0.N) : t.val - 1 < cfg0.N := Nat.lt_of_le_of_lt (Nat.sub_le _ _) t.isLt

/-- A first step: the accumulator restarts from zero. -/
theorem acc_first (c : Dev nD) (t : Fin cfg0.N) (h0 : t.val % 4 = 0) :
    (outsAt0 m c t.val t.isLt).2 = k0_pay2 (iblk m c 0 t) (iblk m c 1 t) (k0_pay1 (F := F)) := by
  have h1 : ¬t.val % 4 = 3 := by omega
  rewrite [outsAt0_A m c t h0 h1]
  dsimp only
  exact scratch_first (F := F) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) ((hcond0_0 t).mpr h0) (fun h => h1 ((hcond0_1 t).mp h)) (iblk m c 0 t) (iblk m c 1 t) (iblk m c 2 t) (iblk m c 3 t)

/-- A later step: the accumulator continues from what the point before left. -/
theorem acc_next (c : Dev nD) (t : Fin cfg0.N) (h0 : ¬t.val % 4 = 0) :
    (outsAt0 m c t.val t.isLt).2 = k0_pay2 (iblk m c 0 t) (iblk m c 1 t) (outsAt0 m c (t.val - 1) (pred_lt t)).2 := by
  by_cases h1 : t.val % 4 = 3
  · rewrite [outsAt0_C m c t h0 h1]
    dsimp only
    exact scratch_last (F := F) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h => h0 ((hcond0_0 t).mp h)) ((hcond0_1 t).mpr h1) (iblk m c 0 t) (iblk m c 1 t) (iblk m c 2 t) (iblk m c 3 t) (outsAt0 m c (t.val - 1) (pred_lt t)).2
  · rewrite [outsAt0_B m c t h0 h1]
    dsimp only
    exact scratch_middle (F := F) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h => h0 ((hcond0_0 t).mp h)) (fun h => h1 ((hcond0_1 t).mp h)) (iblk m c 0 t) (iblk m c 1 t) (iblk m c 2 t) (iblk m c 3 t) (outsAt0 m c (t.val - 1) (pred_lt t)).2

/-- A last step: the output block is the finished accumulator, scaled and shifted. -/
theorem out_at_last (c : Dev nD) (t : Fin cfg0.N) (h1 : t.val % 4 = 3) :
    (outsAt0 m c t.val t.isLt).1
      = k0_pay3 (k0_pay2 (iblk m c 0 t) (iblk m c 1 t) (outsAt0 m c (t.val - 1) (pred_lt t)).2) (iblk m c 2 t) (iblk m c 3 t) := by
  have h0 : ¬t.val % 4 = 0 := by omega
  rewrite [outsAt0_C m c t h0 h1]
  dsimp only
  exact out_last (F := F) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h => h0 ((hcond0_0 t).mp h)) ((hcond0_1 t).mpr h1) (iblk m c 0 t) (iblk m c 1 t) (iblk m c 2 t) (iblk m c 3 t) (outsAt0 m c (t.val - 1) (pred_lt t)).2

end Cert.KernelIdeal.KValue

end
-- ==== Proof.Payloads.lean ====
/-
  The body's three payloads read at one entry `(p, q)` of a [1024, 1024] block, over the extended reals.

    * the cleared accumulator is `0` everywhere;
    * the accumulating step adds to the accumulator's entry the dot product of row `p` of the activation block with
      row `q` of the weight block (the weight block is stored output-feature-major, so both factors are indexed by
      their SECOND coordinate along the contraction): `acc[p, q] + ∑ₖ x[p, k] · w[q, k]`. Rounding the activations to a
      narrower float format before the product changes nothing here, since every format holds the same extended real;
    * the finishing step is `a[p, q] · s[0, q] + b[0, q]`: the single scale row and the single bias row are repeated
      down all 1024 rows of the block.
-/
import proofs.«175887_j65953517798089_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx

namespace Cert.KernelIdeal.KValue

open Cert.KernelIdeal Cert.KernelIdeal.Gen

/-! ## The matrix product's operand indices -/

/-- The left operand's row is the output's row; -/
theorem lhs_row (j : S1024x1024.Idx) (k : dot_S1024x1024_S1024x1024_S1024x1024_1_1_0_0_n_n.contr.Idx) : (dot_S1024x1024_S1024x1024_S1024x1024_1_1_0_0_n_n.lhsIdx j k 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- its column is the contraction index. -/
theorem lhs_col (j : S1024x1024.Idx) (k : dot_S1024x1024_S1024x1024_S1024x1024_1_1_0_0_n_n.contr.Idx) : (dot_S1024x1024_S1024x1024_S1024x1024_1_1_0_0_n_n.lhsIdx j k 1).val = (k ⟨0, by decide⟩).val :=
  dot_S1024x1024_S1024x1024_S1024x1024_1_1_0_0_n_n.lhsIdx_val_of_single rfl j k
/-- The right operand's row is the output's COLUMN; -/
theorem rhs_row (j : S1024x1024.Idx) (k : dot_S1024x1024_S1024x1024_S1024x1024_1_1_0_0_n_n.contr.Idx) : (dot_S1024x1024_S1024x1024_S1024x1024_1_1_0_0_n_n.rhsIdx j k 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- its column is the contraction index too. -/
theorem rhs_col (j : S1024x1024.Idx) (k : dot_S1024x1024_S1024x1024_S1024x1024_1_1_0_0_n_n.contr.Idx) : (dot_S1024x1024_S1024x1024_S1024x1024_1_1_0_0_n_n.rhsIdx j k 1).val = (k ⟨0, by decide⟩).val :=
  dot_S1024x1024_S1024x1024_S1024x1024_1_1_0_0_n_n.rhsIdx_val_of_single rfl j k

/-- The product of a [1024, 1024] block with the transpose of another, into a zero accumulator, at `(p, q)`: the dot
    product of row `p` of the first with row `q` of the second. -/
theorem matmul_rows_apply (l : FVec Ideal S1024x1024 .bf16) (r : FVec Ideal S1024x1024 .bf16) (p q : Fin 1024) :
    matmul dot_S1024x1024_S1024x1024_S1024x1024_1_1_0_0_n_n none l r (constant S1024x1024 .f32 0x00000000#32) (ix2 p q) = ∑ k : Fin 1024, l (ix2 p k) * r (ix2 q k) := by
  refine (Ideal.matmul_constant_zero_apply dot_S1024x1024_S1024x1024_S1024x1024_1_1_0_0_n_n none l r (ix2 p q)).trans ?_
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs_row _ _
    | ⟨1, _⟩ => exact (lhs_col _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs_row _ _
    | ⟨1, _⟩ => exact (rhs_col _ _).trans hk)
  rw [el, er]

/-! ## The payloads -/

/-- The cleared accumulator is zero everywhere. -/
theorem cleared_apply (j : S1024x1024.Idx) : k0_pay1 (F := Ideal) j = 0 := by
  unfold k0_pay1
  rw [shapeCast_self]
  exact Ideal.ofBits_zero_f32

/-- One accumulating step at `(p, q)`. -/
theorem accumulate_apply (x : Vec Ideal S1024x1024 .f32) (w : Vec Ideal S1024x1024 .bf16) (acc : Vec Ideal S1024x1024 .f32) (p q : Fin 1024) :
    k0_pay2 x w acc (ix2 p q) = acc (ix2 p q) + ∑ k : Fin 1024, x (ix2 p k) * w (ix2 q k) := by
  unfold k0_pay2
  simp only [shapeCast_self]
  exact congrArg (acc (ix2 p q) + ·) (matmul_rows_apply _ _ p q)

/-- The finishing step at `(p, q)`. -/
theorem finish_apply (a : Vec Ideal S1024x1024 .f32) (s b : Vec Ideal S1x1024 .f32) (p q : Fin 1024) :
    k0_pay3 a s b (ix2 p q) = a (ix2 p q) * s (ix2 (0 : Fin 1) q) + b (ix2 (0 : Fin 1) q) := by
  unfold k0_pay3
  simp only [shapeCast_self]
  show a (ix2 p q) * broadcastTo S1024x1024 s broadcasts_S1x1024_S1024x1024 (ix2 p q)
      + broadcastTo S1024x1024 b broadcasts_S1x1024_S1024x1024 (ix2 p q) = _
  rw [broadcastTo_1b_ab_apply s broadcasts_S1x1024_S1024x1024 p q, broadcastTo_1b_ab_apply b broadcasts_S1x1024_S1024x1024 p q]

end Cert.KernelIdeal.KValue

end
-- ==== Proof.Blocks.lean ====
/-
  A sum over 4096 indices taken in four consecutive chunks of 1024.

  `chunkIdx n k` is position `k` of chunk `n` (chunks are counted modulo 4, so the definition is total),
  `chunkSum f n` the sum of `f` over chunk `n`, and `partialSum f n` the running total after the first `n` chunks,
  starting from zero and adding one chunk at a time in order — exactly how an accumulator that is cleared and then
  increased once per step evolves.
-/
import Idealize.ShloMosaic.PureOps.Ideal

noncomputable section

namespace Cert.DequantLinear

/-- Position `k` of chunk `n` (taken modulo 4) among 4096 indices. -/
def chunkIdx (n : ℕ) (k : Fin 1024) : Fin 4096 :=
  ⟨(n % 4) * 1024 + k.val, by have := k.isLt; have := Nat.mod_lt n (by decide : 0 < 4); omega⟩

theorem chunkIdx_val (n : ℕ) (k : Fin 1024) : (chunkIdx n k).val = (n % 4) * 1024 + k.val := rfl

/-- The sum of `f` over chunk `n`. -/
def chunkSum (f : Fin 4096 → EReal) (n : ℕ) : EReal := ∑ k : Fin 1024, f (chunkIdx n k)

/-- The running total after the first `n` chunks. -/
def partialSum (f : Fin 4096 → EReal) : ℕ → EReal
  | 0 => 0
  | n + 1 => partialSum f n + chunkSum f n

/-- Chunks are counted modulo 4. -/
theorem chunkIdx_mod (n : ℕ) (k : Fin 1024) : chunkIdx (n % 4) k = chunkIdx n k :=
  Fin.ext (by rw [chunkIdx_val, chunkIdx_val, Nat.mod_mod])

theorem chunkSum_mod (f : Fin 4096 → EReal) (n : ℕ) : chunkSum f (n % 4) = chunkSum f n :=
  Finset.sum_congr rfl fun k _ => congrArg f (chunkIdx_mod n k)

theorem partialSum_zero (f : Fin 4096 → EReal) : partialSum f 0 = 0 := rfl
theorem partialSum_succ (f : Fin 4096 → EReal) (n : ℕ) : partialSum f (n + 1) = partialSum f n + chunkSum f n := rfl

end Cert.DequantLinear

end
-- ==== Proof.BlockReads.lean ====
/-
  The blocks a grid point loads, read at one entry as entries of the whole arrays.

  Point `t` of the 8 × 4 × 4 grid works on output block `(t / 16, (t / 4) mod 4)` at contraction step `t mod 4`. So
    * entry `(p, k)` of its activation block is entry `(1024·(t/16) + p, 1024·(t mod 4) + k)` of the [8192, 4096] activations;
    * entry `(q, k)` of its weight block is entry `(1024·((t/4) mod 4) + q, 1024·(t mod 4) + k)` of the [4096, 4096] weights;
    * entry `(0, q)` of its scale (bias) row is entry `(0, 1024·((t/4) mod 4) + q)` of the [1, 4096] scale (bias).
-/
import proofs.«175887_j65953517798089_2_alg».proof.Proof.Gen.KernelIdeal.Frame
import proofs.«175887_j65953517798089_2_alg».proof.Proof.Blocks
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.KValue

open Cert.KernelIdeal Cert.KernelIdeal.Gen Cert.DequantLinear

variable {F : FTy → Type} [FloatOps F]
variable (m : (ℓ : Loc nD τ sig) → Buf (Elt F) ℓ)

/-- The five index maps in closed form, decided once over the 128 points. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = 0 ∧ win0_3.index t (1 : Fin 2) = t.val / 4 % 4
    ∧ win0_4.index t (0 : Fin 2) = t.val / 16 ∧ win0_4.index t (1 : Fin 2) = t.val / 4 % 4 :=
  (by decide +kernel : ∀ t : Fin grid0.N, _)

theorem N_eq : cfg0.N = 128 := N_0

/-- The array row of row `p` of point `t`'s output block. -/
def rowOf (t : Fin cfg0.N) (p : Fin 1024) : Fin 8192 :=
  ⟨t.val / 16 * 1024 + p.val, by have := t.isLt; have := N_eq; have := p.isLt; omega⟩
/-- The array column of column `q` of point `t`'s output block. -/
def colOf (t : Fin cfg0.N) (q : Fin 1024) : Fin 4096 :=
  ⟨t.val / 4 % 4 * 1024 + q.val, by have := q.isLt; have := Nat.mod_lt (t.val / 4) (by decide : 0 < 4); omega⟩

theorem rowOf_val (t : Fin cfg0.N) (p : Fin 1024) : (rowOf t p).val = t.val / 16 * 1024 + p.val := rfl
theorem colOf_val (t : Fin cfg0.N) (q : Fin 1024) : (colOf t q).val = t.val / 4 % 4 * 1024 + q.val := rfl

/-- The activation block at `(p, k)`. -/
theorem x_block (c : Dev nD) (t : Fin cfg0.N) (p k : Fin 1024) :
    iblk m c 0 t (ix2 p k) = V m c main_v0 (ix2 (rowOf t p) (chunkIdx t.val k)) := by
  obtain ⟨e0, e1, -⟩ := idx_facts t
  unfold iblk
  rw [View.read_apply]
  show V m c main_v0 (((cfg0.win 0).blk t).view.emb (ix2 p k)) = _
  refine congrArg (V m c main_v0) (funext fun a => Fin.ext ?_)
  match a with
  | ⟨0, _⟩ => show win0_0.index t (0 : Fin 2) * 1024 + 1 * p.val = t.val / 16 * 1024 + p.val; rw [e0]; omega
  | ⟨1, _⟩ => show win0_0.index t (1 : Fin 2) * 1024 + 1 * k.val = t.val % 4 * 1024 + k.val; rw [e1]; omega

/-- The weight block at `(q, k)`. -/
theorem w_block (c : Dev nD) (t : Fin cfg0.N) (q k : Fin 1024) :
    iblk m c 1 t (ix2 q k) = V m c main_v1 (ix2 (colOf t q) (chunkIdx t.val k)) := by
  obtain ⟨-, -, e0, e1, -⟩ := idx_facts t
  unfold iblk
  rw [View.read_apply]
  show V m c main_v1 (((cfg0.win 1).blk t).view.emb (ix2 q k)) = _
  refine congrArg (V m c main_v1) (funext fun a => Fin.ext ?_)
  match a with
  | ⟨0, _⟩ => show win0_1.index t (0 : Fin 2) * 1024 + 1 * q.val = t.val / 4 % 4 * 1024 + q.val; rw [e0]; omega
  | ⟨1, _⟩ => show win0_1.index t (1 : Fin 2) * 1024 + 1 * k.val = t.val % 4 * 1024 + k.val; rw [e1]; omega

/-- The scale row at `(0, q)`. -/
theorem s_block (c : Dev nD) (t : Fin cfg0.N) (q : Fin 1024) :
    iblk m c 2 t (ix2 (0 : Fin 1) q) = V m c main_v2 (ix2 (0 : Fin 1) (colOf t q)) := by
  obtain ⟨-, -, -, -, e0, e1, -⟩ := idx_facts t
  unfold iblk
  rw [View.read_apply]
  show V m c main_v2 (((cfg0.win 2).blk t).view.emb (ix2 (0 : Fin 1) q)) = _
  refine congrArg (V m c main_v2) (funext fun a => Fin.ext ?_)
  match a with
  | ⟨0, _⟩ => show win0_2.index t (0 : Fin 2) * 1 + 1 * 0 = 0; rw [e0]
  | ⟨1, _⟩ => show win0_2.index t (1 : Fin 2) * 1024 + 1 * q.val = t.val / 4 % 4 * 1024 + q.val; rw [e1]; omega

/-- The bias row at `(0, q)`. -/
theorem b_block (c : Dev nD) (t : Fin cfg0.N) (q : Fin 1024) :
    iblk m c 3 t (ix2 (0 : Fin 1) q) = V m c main_v3 (ix2 (0 : Fin 1) (colOf t q)) := by
  obtain ⟨-, -, -, -, -, -, e0, e1, -⟩ := idx_facts t
  unfold iblk
  rw [View.read_apply]
  show V m c main_v3 (((cfg0.win 3).blk t).view.emb (ix2 (0 : Fin 1) q)) = _
  refine congrArg (V m c main_v3) (funext fun a => Fin.ext ?_)
  match a with
  | ⟨0, _⟩ => show win0_3.index t (0 : Fin 2) * 1 + 1 * 0 = 0; rw [e0]
  | ⟨1, _⟩ => show win0_3.index t (1 : Fin 2) * 1024 + 1 * q.val = t.val / 4 % 4 * 1024 + q.val; rw [e1]; omega

end Cert.KernelIdeal.KValue

end
-- ==== Proof.Accumulator.lean ====
/-
  The accumulator after every grid point, and the output block at a last step, over the extended reals.

  Fix whole arrays `X` (activations, [8192, 4096]), `W` (weights, [4096, 4096]), `S` and `B` (scale and bias, [1, 4096])
  of which every point's loaded blocks are the corresponding blocks. For output entry `(r, o)` write
  `f k = X[r, k] · W[o, k]`. Then after point `t`, at step `t mod 4` of its output block, the accumulator's entry
  `(p, q)` is the running total of `f` over the first `t mod 4 + 1` chunks of the contraction axis, `r` and `o` being
  the array row and column of `(p, q)` in that block — by induction on the point: a first step restarts from zero, a
  later step adds its chunk to what the point before left, and the point before belongs to the same output block.
  At a last step all four chunks are in, and the output block's entry is `(total of f) · S[0, o] + B[0, o]`.
-/
import proofs.«175887_j65953517798089_2_alg».proof.Proof.Steps
import proofs.«175887_j65953517798089_2_alg».proof.Proof.Payloads
import proofs.«175887_j65953517798089_2_alg».proof.Proof.BlockReads

set_option maxRecDepth 16384

noncomputable section

open Idealize.ShloMosaic Idealize.ShloMosaic.TcCoe Idealize.SL.Sem Idealize.ShloMosaic.ValueIdx

namespace Cert.KernelIdeal.KValue

open Cert.KernelIdeal Cert.KernelIdeal.Gen Cert.DequantLinear

variable (m : (ℓ : Loc nD τ sig) → Buf (Elt Ideal) ℓ)

/-- The products along the contraction axis for array row `r` and weight row `o`. -/
def prods (X : (⟨2, ![8192, 4096]⟩ : Shape).Idx → EReal) (W : (⟨2, ![4096, 4096]⟩ : Shape).Idx → EReal)
    (r : Fin 8192) (o : Fin 4096) : Fin 4096 → EReal := fun k => X (ix2 r k) * W (ix2 o k)

/-- Two consecutive points of one output block have the same block row and column. -/
theorem rowOf_pred (n : ℕ) (h : n + 1 < cfg0.N) (h0 : ¬(n + 1) % 4 = 0) (p : Fin 1024) :
    rowOf ⟨n, Nat.lt_of_succ_lt h⟩ p = rowOf ⟨n + 1, h⟩ p :=
  Fin.ext (by rw [rowOf_val, rowOf_val]; show n / 16 * 1024 + p.val = (n + 1) / 16 * 1024 + p.val; omega)
theorem colOf_pred (n : ℕ) (h : n + 1 < cfg0.N) (h0 : ¬(n + 1) % 4 = 0) (q : Fin 1024) :
    colOf ⟨n, Nat.lt_of_succ_lt h⟩ q = colOf ⟨n + 1, h⟩ q :=
  Fin.ext (by rw [colOf_val, colOf_val]; show n / 4 % 4 * 1024 + q.val = (n + 1) / 4 % 4 * 1024 + q.val; omega)

section
variable (c : Dev nD)
variable (X : (⟨2, ![8192, 4096]⟩ : Shape).Idx → EReal) (W : (⟨2, ![4096, 4096]⟩ : Shape).Idx → EReal)
variable (hX : ∀ (t : Fin cfg0.N) (p k : Fin 1024), iblk m c 0 t (ix2 p k) = X (ix2 (rowOf t p) (chunkIdx t.val k)))
variable (hW : ∀ (t : Fin cfg0.N) (q k : Fin 1024), iblk m c 1 t (ix2 q k) = W (ix2 (colOf t q) (chunkIdx t.val k)))

include hX hW in
/-- One accumulating step at point `t`: the accumulator's entry grows by this step's chunk of the products. -/
theorem step_apply (t : Fin cfg0.N) (acc : Vec Ideal S1024x1024 .f32) (p q : Fin 1024) :
    k0_pay2 (iblk m c 0 t) (iblk m c 1 t) acc (ix2 p q)
      = acc (ix2 p q) + chunkSum (prods X W (rowOf t p) (colOf t q)) (t.val % 4) := by
  refine (accumulate_apply (iblk m c 0 t) (iblk m c 1 t) acc p q).trans ?_
  rw [chunkSum_mod]
  exact congrArg (acc (ix2 p q) + ·) (Finset.sum_congr rfl fun k _ => by rw [hX t p k, hW t q k]; rfl)

include hX hW in
/-- THE ACCUMULATOR after point `n`: the running total over the chunks seen so far in its output block. -/
theorem acc_eq : ∀ (n : ℕ) (h : n < cfg0.N) (p q : Fin 1024),
    (outsAt0 m c n h).2 (ix2 p q)
      = partialSum (prods X W (rowOf ⟨n, h⟩ p) (colOf ⟨n, h⟩ q)) (n % 4 + 1) := by
  intro n
  induction n with
  | zero =>
    intro h p q
    rw [acc_first m c ⟨0, h⟩ rfl, step_apply m c X W hX hW ⟨0, h⟩ _ p q, cleared_apply, partialSum_succ, partialSum_zero]
  | succ n ih =>
    intro h p q
    by_cases h0 : (n + 1) % 4 = 0
    · rw [acc_first m c ⟨n + 1, h⟩ h0, step_apply m c X W hX hW ⟨n + 1, h⟩ _ p q, cleared_apply, partialSum_succ]
      show _ = partialSum _ ((n + 1) % 4) + _
      rw [h0, partialSum_zero]
    · rw [acc_next m c ⟨n + 1, h⟩ h0, step_apply m c X W hX hW ⟨n + 1, h⟩ _ p q, partialSum_succ]
      refine congrArg (· + _) ?_
      show (outsAt0 m c n (Nat.lt_of_succ_lt h)).2 (ix2 p q) = _
      rw [ih (Nat.lt_of_succ_lt h) p q, rowOf_pred n h h0 p, colOf_pred n h h0 q]
      exact congrArg _ (by omega)

variable (S B : (⟨2, ![1, 4096]⟩ : Shape).Idx → EReal)
variable (hS : ∀ (t : Fin cfg0.N) (q : Fin 1024), iblk m c 2 t (ix2 (0 : Fin 1) q) = S (ix2 (0 : Fin 1) (colOf t q)))
variable (hB : ∀ (t : Fin cfg0.N) (q : Fin 1024), iblk m c 3 t (ix2 (0 : Fin 1) q) = B (ix2 (0 : Fin 1) (colOf t q)))

include hX hW hS hB in
/-- THE OUTPUT BLOCK at a last step: the whole dot product, scaled and shifted. -/
theorem out_eq (t : Fin cfg0.N) (h1 : t.val % 4 = 3) (p q : Fin 1024) :
    (outsAt0 m c t.val t.isLt).1 (ix2 p q)
      = partialSum (prods X W (rowOf t p) (colOf t q)) 4 * S (ix2 (0 : Fin 1) (colOf t q)) + B (ix2 (0 : Fin 1) (colOf t q)) := by
  have h0 : ¬t.val % 4 = 0 := by omega
  rw [out_at_last m c t h1, finish_apply, hS t q, hB t q, ← acc_next m c t h0]
  have e := acc_eq m c X W hX hW t.val t.isLt p q
  rw [h1] at e
  rw [e]

end

end Cert.KernelIdeal.KValue

end
-- ==== Proof.BlockSum.lean ====
/-
  Four chunks of 1024 make up the whole sum over 4096 indices.

  Every index below 4096 is i · 1024 + j for exactly one chunk number i below 4 and one position j below 1024, so
  the sum over all indices is the sum over i of the sum over j; the inner sum for chunk i is that chunk's sum. The
  running total after four chunks is 0 plus the four chunk sums taken in order, which is that sum over i written out.
  Only that addition of extended reals is associative and commutative, with 0 neutral, is used.
-/
import proofs.«175887_j65953517798089_2_alg».proof.Proof.Blocks

namespace Cert.DequantLinear

/-- The pairs (chunk number, position) are the indices below 4096: (i, j) is i · 1024 + j. -/
def chunkEquiv : Fin 4 × Fin 1024 ≃ Fin 4096 := finProdFinEquiv (m := 4) (n := 1024)

theorem chunkEquiv_val (i : Fin 4) (j : Fin 1024) : (chunkEquiv (i, j)).val = j.val + 1024 * i.val := rfl

/-- Position `j` of chunk `i` is the index i · 1024 + j. -/
theorem chunkIdx_eq (i : Fin 4) (j : Fin 1024) : chunkIdx i.val j = chunkEquiv (i, j) := by
  apply Fin.ext
  rw [chunkIdx_val, chunkEquiv_val, Nat.mod_eq_of_lt i.isLt]
  omega

/-- The sum over chunk `i` is the sum over the indices i · 1024 + j. -/
theorem chunkSum_eq (f : Fin 4096 → EReal) (i : Fin 4) :
    chunkSum f i.val = ∑ j : Fin 1024, f (chunkEquiv (i, j)) :=
  Finset.sum_congr rfl fun j _ => congrArg f (chunkIdx_eq i j)

/-- The sum over all indices is the sum over the pairs. -/
theorem sum_eq_sum_pairs (f : Fin 4096 → EReal) :
    ∑ k : Fin 4096, f k = ∑ p : Fin 4 × Fin 1024, f (chunkEquiv p) :=
  (Equiv.sum_comp chunkEquiv f).symm

/-- The sum over the pairs is the sum of the four chunk sums. -/
theorem sum_pairs_eq_sum_chunks (f : Fin 4096 → EReal) :
    ∑ p : Fin 4 × Fin 1024, f (chunkEquiv p) = ∑ i : Fin 4, chunkSum f i.val := by
  rw [Fintype.sum_prod_type]
  exact Finset.sum_congr rfl fun i _ => (chunkSum_eq f i).symm

/-- The running total after all four chunks is the whole sum. -/
theorem partialSum_four (f : Fin 4096 → EReal) : partialSum f 4 = ∑ k : Fin 4096, f k := by
  rw [sum_eq_sum_pairs, sum_pairs_eq_sum_chunks, Fin.sum_univ_four]
  show 0 + chunkSum f 0 + chunkSum f 1 + chunkSum f 2 + chunkSum f 3 = _
  rw [zero_add]
  rfl

end Cert.DequantLinear
-- ==== Proof.Output.lean ====
/-
  The [8192, 4096] result array after the region, as one function of the arrays the region finds.

  `entry X W S B r o = (∑ₖ X[r, k] · W[o, k]) · S[0, o] + B[0, o]`.
  The output window is written back only at last steps (points `t` with `t mod 4 = 3`), and what such a point writes
  is block `(t / 16, (t / 4) mod 4)` of that function: the finished accumulator holds all four chunks of the dot
  product. Entry `(r, o)` of the array lies in the block of the last step `16·(r / 1024) + 4·(o / 1024) + 3`, so the
  blocks written back cover the array and it ends holding the function everywhere.
-/
import proofs.«175887_j65953517798089_2_alg».proof.Proof.Accumulator
import proofs.«175887_j65953517798089_2_alg».proof.Proof.BlockSum

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.DequantLinear

variable (m : (ℓ : Loc nD τ sig) → Buf (Elt Ideal) ℓ)

/-- One entry of the result. -/
def entry (X : (⟨2, ![8192, 4096]⟩ : Shape).Idx → EReal) (W : (⟨2, ![4096, 4096]⟩ : Shape).Idx → EReal)
    (S B : (⟨2, ![1, 4096]⟩ : Shape).Idx → EReal) (r : Fin 8192) (o : Fin 4096) : EReal :=
  (∑ k : Fin 4096, X (ix2 r k) * W (ix2 o k)) * S (ix2 (0 : Fin 1) o) + B (ix2 (0 : Fin 1) o)

/-- The whole result array. -/
def result2 (X : (⟨2, ![8192, 4096]⟩ : Shape).Idx → EReal) (W : (⟨2, ![4096, 4096]⟩ : Shape).Idx → EReal)
    (S B : (⟨2, ![1, 4096]⟩ : Shape).Idx → EReal) : (⟨2, ![8192, 4096]⟩ : Shape).Idx → EReal :=
  fun i => entry X W S B ⟨(i 0).val, (i 0).isLt⟩ ⟨(i 1).val, (i 1).isLt⟩

theorem result2_apply (X : (⟨2, ![8192, 4096]⟩ : Shape).Idx → EReal) (W : (⟨2, ![4096, 4096]⟩ : Shape).Idx → EReal)
    (S B : (⟨2, ![1, 4096]⟩ : Shape).Idx → EReal) (r : Fin 8192) (o : Fin 4096) :
    result2 X W S B (ix2 r o) = entry X W S B r o := rfl

/-- An index of the array is in point `t`'s output block iff each coordinate is in the block's range. -/
theorem mem_out_block (t : Fin cfg0.N) (i : S8192x4096.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v4).slice (win0_4.rect t)).set ↔ _
  rw [View.set_slice_whole, Rect.mem_set_unit]
  exact Iff.rfl

section
variable (c : Dev nD)
variable (X : (⟨2, ![8192, 4096]⟩ : Shape).Idx → EReal) (W : (⟨2, ![4096, 4096]⟩ : Shape).Idx → EReal)
variable (S B : (⟨2, ![1, 4096]⟩ : Shape).Idx → EReal)
variable (hX : ∀ (t : Fin cfg0.N) (p k : Fin 1024), iblk m c 0 t (ix2 p k) = X (ix2 (rowOf t p) (chunkIdx t.val k)))
variable (hW : ∀ (t : Fin cfg0.N) (q k : Fin 1024), iblk m c 1 t (ix2 q k) = W (ix2 (colOf t q) (chunkIdx t.val k)))
variable (hS : ∀ (t : Fin cfg0.N) (q : Fin 1024), iblk m c 2 t (ix2 (0 : Fin 1) q) = S (ix2 (0 : Fin 1) (colOf t q)))
variable (hB : ∀ (t : Fin cfg0.N) (q : Fin 1024), iblk m c 3 t (ix2 (0 : Fin 1) q) = B (ix2 (0 : Fin 1) (colOf t q)))

include hX hW hS hB in
/-- The output block's entry `(p, q)` at a last step is the result's entry at the block's array position. -/
theorem out_entry (t : Fin cfg0.N) (h1 : t.val % 4 = 3) (p q : Fin 1024) :
    (outsAt0 m c t.val t.isLt).1 (ix2 p q) = entry X W S B (rowOf t p) (colOf t q) := by
  rw [out_eq m c X W hX hW S B hS hB t h1 p q, partialSum_four]
  rfl

include hX hW hS hB in
/-- WHAT A LAST STEP WRITES BACK is its block of the result. -/
theorem flushed_eq (t : Fin cfg0.N) (hf : (cfg0.win 4).flush t = true) :
    (dats m 0 c).flushed 4 t = ((cfg0.win 4).blk t).view.read (Elt Ideal) (result2 X W S B) := by
  have h1 : t.val % 4 = 3 := (flush0_4 t).mp hf
  obtain ⟨-, -, -, -, -, -, -, -, e0, e1⟩ := idx_facts t
  show (cfg0.win 4).cut (grid0.coords t) ((dats m 0 c).after 4 t) = _
  rw [after0_4]
  funext j
  obtain ⟨p, q, rfl⟩ : ∃ (p q : Fin 1024), j = ix2 p q := ⟨j 0, j 1, eq_ix2 j⟩
  show (outsAt0 m c t.val t.isLt).1 (ix2 p q) = result2 X W S B (((cfg0.win 4).blk t).view.emb (ix2 p q))
  have e : ((cfg0.win 4).blk t).view.emb (ix2 p q) = ix2 (rowOf t p) (colOf t q) := funext fun a => Fin.ext (by
    match a with
    | ⟨0, _⟩ => show win0_4.index t (0 : Fin 2) * 1024 + 1 * p.val = t.val / 16 * 1024 + p.val; rw [e0]; omega
    | ⟨1, _⟩ => show win0_4.index t (1 : Fin 2) * 1024 + 1 * q.val = t.val / 4 % 4 * 1024 + q.val; rw [e1]; omega)
  rw [e, result2_apply]
  exact out_entry m c X W S B hX hW hS hB t h1 p q

/-- The last step whose block holds entry `(r, o)`. -/
def coverPoint (i : S8192x4096.Idx) : Fin cfg0.N :=
  ⟨(i 0).val / 1024 * 16 + (i 1).val / 1024 * 4 + 3, by
    have h0 : (i 0).val < 8192 := (i 0).isLt
    have h1 : (i 1).val < 4096 := (i 1).isLt
    have := N_eq
    omega⟩

theorem coverPoint_val (i : S8192x4096.Idx) : (coverPoint i).val = (i 0).val / 1024 * 16 + (i 1).val / 1024 * 4 + 3 := rfl

/-- Every entry of the array is in some last step's block. -/
theorem covered (i : S8192x4096.Idx) :
    ∃ t : Fin cfg0.N, (cfg0.win 4).flush t = true ∧ i ∈ ((cfg0.win 4).blk t).view.set := by
  have h0 : (i 0).val < 8192 := (i 0).isLt
  have h1 : (i 1).val < 4096 := (i 1).isLt
  have hv := coverPoint_val i
  obtain ⟨-, -, -, -, -, -, -, -, e0, e1⟩ := idx_facts (coverPoint i)
  refine ⟨coverPoint i, (flush0_4 _).mpr (by rw [hv]; omega), ?_⟩
  rw [mem_out_block]
  intro a
  match a with
  | ⟨0, _⟩ =>
    show win0_4.index (coverPoint i) (0 : Fin 2) * 1024 ≤ (i 0).val ∧ (i 0).val < win0_4.index (coverPoint i) (0 : Fin 2) * 1024 + 1024
    rw [e0, hv]; omega
  | ⟨1, _⟩ =>
    show win0_4.index (coverPoint i) (1 : Fin 2) * 1024 ≤ (i 1).val ∧ (i 1).val < win0_4.index (coverPoint i) (1 : Fin 2) * 1024 + 1024
    rw [e1, hv]; omega

include hX hW hS hB in
/-- THE RESULT ARRAY after the region. -/
theorem final : (dats m 0 c).arrAt 4 cfg0.N = result2 X W S B :=
  (dats m 0 c).arrAt_eq_of_cover 4 (result2 X W S B) (fun t hf => flushed_eq m c X W S B hX hW hS hB t hf) covered

end

end Cert.KernelIdeal.KValue

end
-- ==== Proof.Spec.lean ====
/-
  The specification of a dequantizing linear layer over the extended reals.

  Inputs: activations `x` of shape [4, 2048, 4096], an integer weight matrix `w` of shape [4096, 4096] (row `o` is the
  output feature, column `k` the input feature), a per-output-row scale `s` and a bias `b`, both of length 4096.

  Two arrangements of the same layer are stated, index by index:
    * `scaleAfter`:  out[b, t, o] = (∑ₖ x[b, t, k] · w[o, k]) · s[o] + bias[o]   — the scale applied once to the dot product;
    * `scaleBefore`: out[b, t, o] = (∑ₖ x[b, t, k] · (w[o, k] · s[o])) + bias[o] — every weight scaled first.
  They agree when `x` and `s` hold real numbers (`Law.lean`); with an infinite entry they need not, since
  multiplication does not distribute over a sum that mixes +∞ and -∞.
-/
import Idealize.ShloMosaic.PureOps.Ideal
import Idealize.ShloMosaic.Lib.ValueIdx

noncomputable section

namespace Cert.DequantLinear

open Idealize.ShloMosaic Idealize.ShloMosaic.ValueIdx

/-- The activations' shape, the weight matrix's, and a length-4096 vector's. -/
abbrev SX : Shape := ⟨3, ![4, 2048, 4096]⟩
abbrev SW : Shape := ⟨2, ![4096, 4096]⟩
abbrev SV : Shape := ⟨1, ![4096]⟩

/-- Entry `(o, k)` of the integer weight matrix, read as a signed integer and then as a real number. -/
def weight (w : SW.Idx → BitVec 32) (o k : Fin 4096) : EReal := (((w (ix2 o k)).toInt : ℝ) : EReal)

/-- The scale applied to the finished dot product. -/
def scaleAfter (x : SX.Idx → EReal) (w : SW.Idx → BitVec 32) (s b : SV.Idx → EReal) : SX.Idx → EReal :=
  fun i => (∑ k : Fin 4096, x (ix3 (i 0) (i 1) k) * weight w (i 2) k) * s (ix1 (i 2)) + b (ix1 (i 2))

/-- Every weight scaled before the dot product. -/
def scaleBefore (x : SX.Idx → EReal) (w : SW.Idx → BitVec 32) (s b : SV.Idx → EReal) : SX.Idx → EReal :=
  fun i => (∑ k : Fin 4096, x (ix3 (i 0) (i 1) k) * (weight w (i 2) k * s (ix1 (i 2)))) + b (ix1 (i 2))

end Cert.DequantLinear

end
-- ==== Proof.HostArrays.lean ====
/-
  The arrays the kernel region finds, as functions of the program's arguments, and their entries.

  Before the region the program flattens the activations [4, 2048, 4096] to [8192, 4096] (row `2048·b + t` is position
  `(b, t)`), converts the integer weights to floats entry by entry, and views the scale and the bias [4096] as single
  rows [1, 4096]. None of this computes anything: every entry of the new arrays is one entry of an argument.
-/
import proofs.«175887_j65953517798089_2_alg».proof.Proof.Gen.KernelIdeal.Frame
import proofs.«175887_j65953517798089_2_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx Idealize.ShloMosaic.StableHlo

namespace Cert.KernelIdeal.KValue

open Cert.KernelIdeal Cert.KernelIdeal.Gen Cert.DequantLinear

variable {F : FTy → Type} [FloatOps F]
variable (m : (ℓ : Loc nD τ sig) → Buf (Elt F) ℓ)

/-- The flattened activations. -/
theorem found_x (c : Dev nD) : (V m c main_v0 : S8192x4096.Idx → Elt F .f32)
    = shapeCast S8192x4096 (m ((c : Thread nD τ).loc main_arg0)) shapeCasts_S4x2048x4096_S8192x4096 := by
  show StableHlo.after hostOps0 (fun b => m (c, b)) (Proc.devRef .tc main_v0) = _
  after_results
  rfl

/-- The weights as floats. -/
theorem found_w (c : Dev nD) : (V m c main_v1 : S4096x4096.Idx → Elt F .bf16)
    = sitofp .bf16 (m ((c : Thread nD τ).loc main_arg1)) := by
  show StableHlo.after hostOps0 (fun b => m (c, b)) (Proc.devRef .tc main_v1) = _
  after_results

/-- The scale as one row. -/
theorem found_s (c : Dev nD) : (V m c main_v2 : S1x4096.Idx → Elt F .f32)
    = shapeCast S1x4096 (m ((c : Thread nD τ).loc main_arg2)) shapeCasts_S4096_S1x4096 := by
  show StableHlo.after hostOps0 (fun b => m (c, b)) (Proc.devRef .tc main_v2) = _
  after_results
  rfl

/-- The bias as one row. -/
theorem found_b (c : Dev nD) : (V m c main_v3 : S1x4096.Idx → Elt F .f32)
    = shapeCast S1x4096 (m ((c : Thread nD τ).loc main_arg3)) shapeCasts_S4096_S1x4096 := by
  show StableHlo.after hostOps0 (fun b => m (c, b)) (Proc.devRef .tc main_v3) = _
  after_results
  rfl

/-- Row `2048·b + t` of a flattened [4, 2048, n] array. -/
def flatRow (b : Fin 4) (t : Fin 2048) : Fin 8192 := ⟨b.val * 2048 + t.val, by have := b.isLt; have := t.isLt; omega⟩

/-- Flattening [4, 2048, 4096] to [8192, 4096]: entry `(2048·b + t, k)` is entry `(b, t, k)`. -/
theorem flatten_apply {α : Type} (x : S4x2048x4096.Idx → α) (b : Fin 4) (t : Fin 2048) (k : Fin 4096) :
    shapeCast S8192x4096 x shapeCasts_S4x2048x4096_S8192x4096 (ix2 (flatRow b t) k) = x (ix3 b t k) :=
  shapeCast_apply x shapeCasts_S4x2048x4096_S8192x4096 _ _ (by
    rw [Shape.rowMajor_val_two, Shape.rowMajor_val_three]
    show (b.val * 2048 + t.val) * 4096 + k.val = (b.val * 2048 + t.val) * 4096 + k.val
    rfl)

/-- And back: entry `(b, t, o)` of the unflattened array is entry `(2048·b + t, o)`. -/
theorem unflatten_apply {α : Type} (y : S8192x4096.Idx → α) (b : Fin 4) (t : Fin 2048) (o : Fin 4096) :
    shapeCast S4x2048x4096 y shapeCasts_S8192x4096_S4x2048x4096 (ix3 b t o) = y (ix2 (flatRow b t) o) :=
  shapeCast_apply y shapeCasts_S8192x4096_S4x2048x4096 _ _ (by
    rw [Shape.rowMajor_val_two, Shape.rowMajor_val_three]
    show (b.val * 2048 + t.val) * 4096 + o.val = (b.val * 2048 + t.val) * 4096 + o.val
    rfl)

/-- A length-4096 vector viewed as one row: entry `(0, o)` is entry `o`. -/
theorem row_apply {α : Type} (v : S4096.Idx → α) (o : Fin 4096) :
    shapeCast S1x4096 v shapeCasts_S4096_S1x4096 (ix2 (0 : Fin 1) o) = v (ix1 o) :=
  shapeCast_a_1a_apply v shapeCasts_S4096_S1x4096 0 o

end Cert.KernelIdeal.KValue

end
-- ==== Proof.KernelRun.lean ====
/-
  The idealized kernel program's run, read back: its result array is the dequantizing linear layer with the scale
  applied after the dot product.

  The region leaves the [8192, 4096] array at `(∑ₖ X[r, k] · W[o, k]) · S[0, o] + B[0, o]` of the arrays it found; those
  are the flattened activations, the integer weights as reals, and the scale and bias as rows; and the one operation
  after the region only views the [8192, 4096] array as [4, 2048, 4096]. Entry `(b, t, o)` of the result is therefore
  `(∑ₖ x[b, t, k] · w[o, k]) · s[o] + bias[o]`. The argument arrays are left as they were.
-/
import proofs.«175887_j65953517798089_2_alg».proof.Proof.Output
import proofs.«175887_j65953517798089_2_alg».proof.Proof.HostArrays

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.KValue

open Cert.KernelIdeal Cert.KernelIdeal.Gen Cert.DequantLinear

/-- One entry of the result over arrays that are re-indexings of the arguments is the specification's entry. -/
theorem entry_eq (x : SX.Idx → EReal) (w : SW.Idx → BitVec 32) (s b : SV.Idx → EReal)
    (X : (⟨2, ![8192, 4096]⟩ : Shape).Idx → EReal) (W : (⟨2, ![4096, 4096]⟩ : Shape).Idx → EReal)
    (S B : (⟨2, ![1, 4096]⟩ : Shape).Idx → EReal)
    (hX : ∀ (p : Fin 4) (t : Fin 2048) (k : Fin 4096), X (ix2 (flatRow p t) k) = x (ix3 p t k))
    (hW : ∀ o k : Fin 4096, W (ix2 o k) = weight w o k)
    (hS : ∀ o : Fin 4096, S (ix2 (0 : Fin 1) o) = s (ix1 o)) (hB : ∀ o : Fin 4096, B (ix2 (0 : Fin 1) o) = b (ix1 o))
    (p : Fin 4) (t : Fin 2048) (o : Fin 4096) :
    entry X W S B (flatRow p t) o = scaleAfter x w s b (ix3 p t o) := by
  unfold entry
  rw [hS o, hB o]
  show _ = (∑ k : Fin 4096, x (ix3 p t k) * weight w o k) * s (ix1 o) + b (ix1 o)
  exact congrArg (fun z => z * s (ix1 o) + b (ix1 o)) (Finset.sum_congr rfl fun k _ => by rw [hX p t k, hW o k])

variable (m : (ℓ : Loc nD τ sig) → Buf (Elt Ideal) ℓ) (ρ : Dev nD → PrngReg)

/-- The array the region leaves, over the arrays it found. -/
theorem region_result (c : Dev nD) :
    (dats m 0 c).arrAt 4 cfg0.N = result2 (V m c main_v0) (V m c main_v1) (V m c main_v2) (V m c main_v3) :=
  final m c (V m c main_v0) (V m c main_v1) (V m c main_v2) (V m c main_v3) (x_block m c) (w_block m c) (s_block m c) (b_block m c)

/-- The found arrays are re-indexings of the arguments. -/
theorem found_x_apply (c : Dev nD) (p : Fin 4) (t : Fin 2048) (k : Fin 4096) :
    V m c main_v0 (ix2 (flatRow p t) k) = (m ((c.tc : Thread nD τ).loc main_arg0)) (ix3 p t k) := by
  rw [found_x m c]; exact flatten_apply _ p t k
theorem found_w_apply (c : Dev nD) (o k : Fin 4096) :
    V m c main_v1 (ix2 o k) = weight (m ((c.tc : Thread nD τ).loc main_arg1)) o k := by
  rw [found_w m c]; rfl
theorem found_s_apply (c : Dev nD) (o : Fin 4096) :
    V m c main_v2 (ix2 (0 : Fin 1) o) = (m ((c.tc : Thread nD τ).loc main_arg2)) (ix1 o) := by
  rw [found_s m c]; exact row_apply _ o
theorem found_b_apply (c : Dev nD) (o : Fin 4096) :
    V m c main_v3 (ix2 (0 : Fin 1) o) = (m ((c.tc : Thread nD τ).loc main_arg3)) (ix1 o) := by
  rw [found_b m c]; exact row_apply _ o

/-- THE PROGRAM'S RESULT: what the operation after the region leaves in the result buffer. -/
theorem tail_eq (c : Dev nD) :
    Pipeline.afterTail₀ cfgs (dats m) 0 (V0 m) [hostOps1] c main_v5
      = scaleAfter (m ((c.tc : Thread nD τ).loc main_arg0)) (m ((c.tc : Thread nD τ).loc main_arg1)) (m ((c.tc : Thread nD τ).loc main_arg2)) (m ((c.tc : Thread nD τ).loc main_arg3)) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v4)
      = result2 (V m c main_v0) (V m c main_v1) (V m c main_v2) (V m c main_v3) :=
    (Pipeline.withArrays_arr spec0 launch0.win.arr_inj c _ _ 4).trans (region_result m c)
  funext i
  show shapeCast S4x2048x4096 (Pipeline.withArrays (cfgs 0).spec c (V0 m c) (fun w => (dats m 0 c).arrAt w (cfgs 0).N)
      (Proc.devRef .tc main_v4)) shapeCasts_S8192x4096_S4x2048x4096 i = _
  rw [hw]
  obtain ⟨p, t, o, rfl⟩ : ∃ (p : Fin 4) (t : Fin 2048) (o : Fin 4096), i = ix3 p t o := ⟨i 0, i 1, i 2, eq_ix3 i⟩
  rw [unflatten_apply, result2_apply]
  exact entry_eq _ _ _ _ _ _ _ _ (found_x_apply m c) (found_w_apply m c) (found_s_apply m c) (found_b_apply m c) p t o

/-- THE RUN, READ: every weakly fair execution of the idealized kernel program terminates with the result buffer at the
    specification's `scaleAfter` of the arguments, and the arguments as they were. -/
theorem run : θ_run defs (onTc (τ := τ) (main (F := Ideal))) ⟨m, fun _ => 0, ρ⟩ (fun r => ∀ c : Dev nD,
      r.2.mem ((c.tc : Thread nD τ).loc main_v5)
        = scaleAfter (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.RefSide.lean ====
/-
  The reference program computes the "scale every weight first" arrangement of the dequantizing linear layer.

  Read at an output position i = (b, t, o), the reference's result is the sum of its two last operands there. The
  second is the bias broadcast along the last axis: bias[o]. The first is a contraction of the activations' last axis
  with the second axis of a matrix m: ∑ₖ x[b, t, k] · m[o, k], where m[o, k] is the weight w[o, k] converted from a
  signed integer to a real number, times the scale s broadcast along rows: s[o]. So the result at i is
      ∑ₖ x[b, t, k] · (w[o, k] · s[o]) + bias[o],
  which is `scaleBefore` at i. What remains is bookkeeping: the index functions the program's layout operations
  compose are the coordinate constructors the specification is written with.
-/
import proofs.«175887_j65953517798089_2_alg».proof.Proof.Spec
import proofs.«175887_j65953517798089_2_alg».proof.Proof.Gen.ReferenceIdeal.Read

namespace Cert.ReferenceIdeal.RefValue

open Idealize.ShloMosaic Idealize.ShloMosaic.ValueIdx Cert.ReferenceIdeal Cert.ReferenceIdeal.Read

/-- The contraction reads the activations at (b, t, k). -/
theorem lidx_eq (i : S4x2048x4096.Idx) (k : Fin 4096) : lidx_main_v4 i k = ix3 (i 0) (i 1) k :=
  funext fun a => Fin.ext (by match a with | ⟨0, _⟩ => rfl | ⟨1, _⟩ => rfl | ⟨2, _⟩ => rfl)

/-- The contraction reads the scaled weight matrix at (o, k). -/
theorem ridx_eq (i : S4x2048x4096.Idx) (k : Fin 4096) : ridx_main_v4 i k = ix2 (i 2) k :=
  funext fun a => Fin.ext (by match a with | ⟨0, _⟩ => rfl | ⟨1, _⟩ => rfl)

/-- The scale broadcast to a column and then along rows is read, at (o, k), at o. -/
theorem sidx_eq (j : S4096x4096.Idx) : idx_main_v1 (idx_main_v2 j) = ix1 (j 0) :=
  funext fun a => Fin.ext (by match a with | ⟨0, _⟩ => rfl)

/-- The bias broadcast along the last axis is read, at (b, t, o), at o. -/
theorem bidx_eq (i : S4x2048x4096.Idx) : idx_main_v5 (idx_main_v6 i) = ix1 (i 2) :=
  funext fun a => Fin.ext (by match a with | ⟨0, _⟩ => rfl)

/-- The reference program's result is `scaleBefore` of its four arguments. -/
theorem ref_eq (x0 : (⟨Cert.ReferenceIdeal.S4x2048x4096, .f32⟩ : BufTy).Contents (Elt Ideal))
    (x1 : (⟨Cert.ReferenceIdeal.S4096x4096, .i32⟩ : BufTy).Contents (Elt Ideal))
    (x2 x3 : (⟨Cert.ReferenceIdeal.S4096, .f32⟩ : BufTy).Contents (Elt Ideal)) :
    Cert.ReferenceIdeal.Read.val_main_v7 (F := Ideal) x0 x1 x2 x3 = Cert.DequantLinear.scaleBefore x0 x1 x2 x3 := by
  funext i
  rw [val_main_v7_apply, val_main_v4_apply, val_main_v6_apply, val_main_v5_apply, bidx_eq]
  refine congrArg (· + x3 (ix1 (i 2))) (Finset.sum_congr rfl fun k _ => ?_)
  rw [val_main_v3_apply, val_main_v0_apply, val_main_v2_apply, val_main_v1_apply, lidx_eq, ridx_eq]
  exact congrArg (fun z => x0 (ix3 (i 0) (i 1) k) * (DequantLinear.weight x1 (i 2) k * x2 z)) (sidx_eq (ix2 (i 2) k))

end Cert.ReferenceIdeal.RefValue
-- ==== Proof.Law.lean ====
/-
  The algebraic law joining the two arrangements of the dequantizing linear layer.

  Fix an output position (b, t, o). Write x_k for the activations x[b, t, k], w_k for the weights w[o, k] (each the real
  value of a signed integer), s for the scale s[o] and c for the bias[o]. The two arrangements are
      (∑ₖ x_k · w_k) · s + c      and      ∑ₖ x_k · (w_k · s) + c.
  When every x_k and s are real numbers, every factor is real. A finite sum of real numbers read in the extended reals
  is the reading of the real sum, and a product of readings is the reading of the product; so both dot products are
  readings of real numbers, and in ℝ they are equal: the product distributes over the finite sum, and multiplication
  is associative. The bias c may be any extended real, infinite ones included: it is added to equal terms.
  Without the hypothesis the law fails, since in the extended reals (⊤ + ⊥) · s and ⊤ · s + ⊥ · s differ.
-/
import proofs.«175887_j65953517798089_2_alg».proof.Proof.Spec

namespace Cert.DequantLinear

open Idealize.ShloMosaic Idealize.ShloMosaic.ValueIdx

/-- A finite sum of real numbers, read in the extended reals, is the sum of the readings. -/
theorem coe_finsum {ι : Type} (t : Finset ι) (f : ι → ℝ) :
    ((∑ k ∈ t, f k : ℝ) : EReal) = ∑ k ∈ t, (f k : EReal) := by
  classical
  refine Finset.induction_on t (by simp) (fun a t ha ih => ?_)
  rw [Finset.sum_insert ha, Finset.sum_insert ha, EReal.coe_add, ih]

/-- The law over any finite index set: a dot product of real-valued `u` with real `v`, scaled by a real `c`, is the
    dot product of `u` with the scaled `v`. -/
theorem dot_mul_of_real {ι : Type} (t : Finset ι) (u : ι → EReal) (v : ι → ℝ) (c : EReal)
    (hu : ∀ k, ∃ r : ℝ, u k = (r : EReal)) (hc : ∃ r : ℝ, c = (r : EReal)) :
    (∑ k ∈ t, u k * (v k : EReal)) * c = ∑ k ∈ t, u k * ((v k : EReal) * c) := by
  choose ur hur using hu
  obtain ⟨cr, rfl⟩ := hc
  simp only [hur, ← EReal.coe_mul, ← coe_finsum]
  rw [Finset.sum_mul]
  simp only [mul_assoc]

/-- With real activations and real scales, scaling the finished dot product and scaling every weight first give the
    same layer output at every index. -/
theorem scaleAfter_eq_scaleBefore (x : SX.Idx → EReal) (w : SW.Idx → BitVec 32) (s b : SV.Idx → EReal)
    (hx : ∀ i, ∃ r : ℝ, x i = (r : EReal)) (hs : ∀ i, ∃ r : ℝ, s i = (r : EReal)) :
    scaleAfter x w s b = scaleBefore x w s b := by
  funext i
  exact congrArg (· + b (ix1 (i 2)))
    (dot_mul_of_real Finset.univ (fun k : Fin 4096 => x (ix3 (i 0) (i 1) k))
      (fun k : Fin 4096 => ((w (ix2 (i 2) k)).toInt : ℝ)) (s (ix1 (i 2))) (fun _ => hx _) (hs _))

end Cert.DequantLinear
-- ==== Proof.Finite.lean ====
/-
  The precondition makes the activations and the scales real-valued.

  The precondition is the conjunction of three "all entries finite" tests, one each for the activations, the scales and
  the bias; a test compares every entry's absolute value with +∞ and takes the conjunction over all entries. If the
  whole is true then so is each test, hence so is the comparison at every entry.
  At one entry x the comparison says max(x, -x) < ⊤ in the extended reals. For x = ⊤ and for x = ⊥ the maximum is ⊤,
  and ⊤ < ⊤ is false; so x is neither, and an extended real that is neither ⊤ nor ⊥ is a real number.
  (The bit pattern 0x7F800000 has sign 0, all eight exponent bits set and a zero fraction: it denotes ⊤.)
  Only the first two tests are used: the law between the two arrangements needs no hypothesis on the bias.
-/
import proofs.«175887_j65953517798089_2_alg».proof.Pre_finite_inputs
import proofs.«175887_j65953517798089_2_alg».proof.Proof.Gen.Pre_finite_inputs
import Idealize.ShloMosaic.Lib.ReduceAll
import Idealize.ShloMosaic.Lib.ValueIdx

namespace Cert.DequantLinear

open Idealize.ShloMosaic Idealize.ShloMosaic.ValueIdx Cert.Pre_finite_inputs

/-- The scalar shape has one index. -/
instance subsingleton_scalarIdx : Subsingleton S_.Idx := ⟨fun a b => funext fun d => d.elim0⟩

/-- The word 0x7F800000 denotes +∞. -/
theorem inf_word : Ideal.ofBits .f32 0x7F800000#32 = (⊤ : EReal) := by
  simp [Ideal.ofBits, Ideal.ieee]

/-- An extended real whose absolute value is strictly below +∞ is a real number. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- Under the precondition every activation and every scale is a real number. -/
theorem real_of_pre [Cert.Pre_finite_inputs.Facts]
    (x0 : FVec Ideal S4x2048x4096 .f32) (x1 : IVec S4096x4096 32) (x2 x3 : FVec Ideal S4096 .f32)
    (h : Cert.Pre_finite_inputs.fn (F := Ideal) x0 x1 x2 x3 = fun _ => 1#1) :
    (∀ i, ∃ r : ℝ, x0 i = (r : EReal)) ∧ (∀ i, ∃ r : ℝ, x2 i = (r : EReal)) := by
  have h0 := congrFun h ValueIdx.ix0
  dsimp only [Cert.Pre_finite_inputs.fn] at h0
  obtain ⟨h01, _⟩ := IntOp.andi_eq_one.1 h0
  obtain ⟨hx, hs⟩ := IntOp.andi_eq_one.1 h01
  exact ⟨fun i => real_of_abs_lt_inf (x0 i) (Host.reduce_andi_all _ _ _ _ _ hx i),
         fun i => real_of_abs_lt_inf (x2 i) (Host.reduce_andi_all _ _ _ _ _ hs i)⟩

end Cert.DequantLinear
-- ==== Proof.lean ====
/-
  The certificate of a dequantizing linear layer: a tiled matrix-product kernel against a plain einsum reference.

  Both programs take activations `x` [4, 2048, 4096], an integer weight matrix `w` [4096, 4096], a per-output-row
  scale `s` and a bias `b` [4096]. Over the extended reals
    * the kernel computes `(∑ₖ x[b, t, k] · w[o, k]) · s[o] + bias[o]`: the activations flattened to [8192, 4096], the
      product accumulated over four chunks of the contraction axis in a block-sized accumulator, the scale and bias
      applied to the finished accumulator, the result viewed again as [4, 2048, 4096];
    * the reference computes `(∑ₖ x[b, t, k] · (w[o, k] · s[o])) + bias[o]`: every weight scaled first.
  The two differ by moving the factor `s[o]` across the sum, which is valid for real numbers and fails when the sum
  mixes +∞ and -∞; the precondition (every float input finite) makes `x` and `s` real-valued, and an integer weight is
  a real number, so under it the results are equal entry by entry.

  The frames of the two kernel programs are the generated frame certificates, the reference's frame is its
  generated run with the result forgotten, and the idealization rewrote nothing, so that conjunct is trivial.
-/
import proofs.«175887_j65953517798089_2_alg».proof.Defs
import proofs.«175887_j65953517798089_2_alg».proof.Proof.Gen.Kernel
import proofs.«175887_j65953517798089_2_alg».proof.Proof.Gen.Kernel.Frame
import proofs.«175887_j65953517798089_2_alg».proof.Proof.Gen.KernelIdeal
import proofs.«175887_j65953517798089_2_alg».proof.Proof.Gen.KernelIdeal.Frame
import proofs.«175887_j65953517798089_2_alg».proof.Proof.Gen.ReferenceIdeal
import proofs.«175887_j65953517798089_2_alg».proof.Proof.Gen.ReferenceIdeal.Run
import proofs.«175887_j65953517798089_2_alg».proof.Proof.Gen.ReferenceIdeal.Read
import proofs.«175887_j65953517798089_2_alg».proof.Proof.Gen.Pre_finite_inputs
import proofs.«175887_j65953517798089_2_alg».proof.Proof.KernelRun
import proofs.«175887_j65953517798089_2_alg».proof.Proof.RefSide
import proofs.«175887_j65953517798089_2_alg».proof.Proof.Law
import proofs.«175887_j65953517798089_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance the kernel's result is `scaleAfter` of its arguments and the reference's is `scaleBefore` of
    arguments that agree with them; the precondition makes the activations and the scale real-valued, and then the two
    arrangements are one function. -/
theorem algebraic : Cert.algebraic_KernelIdeal_ReferenceIdeal := by
  intro m ρ m' ρ' hpre hagree
  refine ⟨fun c => Cert.DequantLinear.scaleAfter (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq, (hagree c).1, (hagree c).2.1,
    (hagree c).2.2.1, (hagree c).2.2.2]
  obtain ⟨hx, hs⟩ := Cert.DequantLinear.real_of_pre _ _ _ _ (hpre c)
  exact (Cert.DequantLinear.scaleAfter_eq_scaleBefore _ _ _ _ hx hs).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
